-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4096x8192 .f32) (main_arg1 : FVec F S4096x4096 .f32) (main_arg2 : FVec F S16x4096 .f32) (main_arg3 : FVec F S4096x16 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4096x8192 : Shape := ⟨2, ![4096, 8192]⟩
abbrev S4096x4096 : Shape := ⟨2, ![4096, 4096]⟩
abbrev S16x4096 : Shape := ⟨2, ![16, 4096]⟩
abbrev S4096x16 : Shape := ⟨2, ![4096, 16]⟩
abbrev S512x4096 : Shape := ⟨2, ![512, 4096]⟩
abbrev S512x16 : Shape := ⟨2, ![512, 16]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .bf16⟩
  | .hbm, ⟨5, _⟩ => ⟨S4096x8192, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S512x16, .f32⟩
  | .local _ .vmem, ⟨4, _⟩ => ⟨S512x16, .f32⟩
  | .local _ .vmem, ⟨5, _⟩ => ⟨S512x4096, .bf16⟩
  | .local _ .vmem, ⟨6, _⟩ => ⟨S512x4096, .bf16⟩
  | .local _ .vmem, ⟨7, _⟩ => ⟨S2048x4096, .bf16⟩
  | .local _ .vmem, ⟨8, _⟩ => ⟨S4096x256, .f32⟩
  | .local _ .vmem, ⟨9, _⟩ => ⟨S4096x256, .f32⟩
  | .local _ .vmem, ⟨10, _⟩ => ⟨S2048x256, .f32⟩
  | .local _ .vmem, ⟨11, _⟩ => ⟨S2048x256, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S4096x256_S4096x256_0_0 : ∀ a, (![0, 0] : Fin 2 → Nat) a + S4096x256.size a ≤ S4096x256.size a
  h_S4096x256 : 0 < S4096x256.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048x256_S2048x256_0_0 : ∀ a, (![0, 0] : Fin 2 → Nat) a + S2048x256.size a ≤ S2048x256.size a
  h_S2048x256 : 0 < S2048x256.numel
  dot_S512x16_S16x4096_S512x4096_1_0_0_1_n_n_wf : DotDims.WF S512x16 S16x4096 S512x4096 [1] [0] [0] [1] [] []
  dot_S2048x4096_S4096x256_S2048x256_1_0_0_1_n_n_wf : DotDims.WF S2048x4096 S4096x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S4096x4096.size a
  hwx1_0 : ∀ i : grid1.Coords, EltTy.bits .bf16 = 32 ∨ (Rect.block (s := S4096x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x8192.size a
  hwx1_1 : ∀ i : grid1.Coords, EltTy.bits .f32 = 32 ∨ (Rect.block (s := S4096x8192) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x8192.size a
  hwx1_2 : ∀ i : grid1.Coords, EltTy.bits .f32 = 32 ∨ (Rect.block (s := S4096x8192) S2048x256.size (cc1_transform_2 i) (hinb1_2 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x8192 : Shape := ⟨2, ![4096, 8192]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x8192, .f32⟩
  | .hbm, ⟨9, _⟩ => ⟨S4096x8192, .f32⟩
  | .hbm, ⟨10, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x16_S16x4096_S4096x4096_1_0_0_1_n_n_wf : DotDims.WF S4096x16 S16x4096 S4096x4096 [1] [0] [0] [1] [] []
  dot_S4096x4096_S4096x8192_S4096x8192_1_0_0_1_n_n_wf : DotDims.WF S4096x4096 S4096x8192 S4096x8192 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.LoraLaw.lean ====
/-
  The mathematics the two programs share, stated over the extended reals and with no program in sight.

  Both programs compute a low-rank-adapted linear map. With W : 4096 x 4096, A : 16 x 4096, B : 4096 x 16 and
  X : 4096 x 8192, and the scale 2 = alpha / r = 32 / 16:
    * the FOLDED form first builds the adapted weight  Weff[p, q] = W[p, q] + 2 * (sum over r of B[p, r] * A[r, q])
      and then takes ONE matrix product  (Weff X)[p, q] = sum over k of Weff[p, k] * X[k, q];
    * the SPLIT form takes TWO matrix products and adds them:  (W X)[p, q] + (D X)[p, q]  with
      D[p, q] = 2 * (sum over r of B[p, r] * A[r, q]).
  Entry by entry the two differ by the distributive law (w + d) * x = w * x + d * x under a finite sum over k. On the
  extended reals that law FAILS at the infinities (for a negative real x, (top + bot) * x = top while top * x + bot * x = bot),
  so it is proved here for REAL entries: when every entry of W, A, B and X is a real number, so is every D[p, k], and the
  law is the reals' own.
-/
import proofs.«174944_j89326729822539_2_alg».proof.Proof.LibRealEntries
import Idealize.ShloMosaic.PureOps.Ideal
import Idealize.ShloMosaic.PureOps.Ideal.Laws
import Idealize.ShloMosaic.Lib.ValueIdx

noncomputable section

namespace Cert.Lora

open Idealize.ShloMosaic Idealize.ShloMosaic.ValueIdx Cert.RealEntries
open scoped BigOperators

/-! ## The scale -/

/-- The scale alpha / r = 32 / 16 as both programs spell it: the single-precision pattern of 2.0. -/
abbrev two : EReal := Ideal.ofBits .f32 0x40000000#32

/-- That pattern denotes the real number 2. -/
theorem two_eq : two = ((2 : ℝ) : EReal) := by
  simp [two, Ideal.ofBits, Ideal.ieee, -EReal.coe_mul]; norm_num

/-! ## The two forms -/

/-- A matrix of extended reals, indexed by (row, column). -/
abbrev Arr (a b : Nat) : Type := (⟨2, ![a, b]⟩ : Shape).Idx → EReal

/-- The row of an index, as a number below the row count. -/
abbrev row {a b : Nat} (i : (⟨2, ![a, b]⟩ : Shape).Idx) : Fin a := ⟨(i 0).val, idx2_lt0 i⟩
/-- The column of an index, as a number below the column count. -/
abbrev col {a b : Nat} (i : (⟨2, ![a, b]⟩ : Shape).Idx) : Fin b := ⟨(i 1).val, idx2_lt1 i⟩

/-- The scaled low-rank update: D[p, q] = 2 * (sum over r of B[p, r] * A[r, q]). -/
def delta (A : Arr 16 4096) (B : Arr 4096 16) : Arr 4096 4096 :=
  fun i => two * ∑ r : Fin 16, B (ix2 (row i) r) * A (ix2 r (col i))

/-- The adapted weight: Weff[p, q] = W[p, q] + D[p, q]. -/
def weff (W : Arr 4096 4096) (A : Arr 16 4096) (B : Arr 4096 16) : Arr 4096 4096 :=
  fun i => W i + delta A B i

/-- The matrix product: (L X)[p, q] = sum over k of L[p, k] * X[k, q]. -/
def mm (L : Arr 4096 4096) (X : Arr 4096 8192) : Arr 4096 8192 :=
  fun i => ∑ k : Fin 4096, L (ix2 (row i) k) * X (ix2 k (col i))

/-- The folded form: one product with the adapted weight. -/
def folded (W : Arr 4096 4096) (A : Arr 16 4096) (B : Arr 4096 16) (X : Arr 4096 8192) : Arr 4096 8192 :=
  mm (weff W A B) X

/-- The split form: the base product plus the update's product. -/
def split (W : Arr 4096 4096) (A : Arr 16 4096) (B : Arr 4096 16) (X : Arr 4096 8192) : Arr 4096 8192 :=
  fun i => mm W X i + mm (delta A B) X i

/-- With real factors every entry of the update is a real. -/
theorem delta_real (A : Arr 16 4096) (B : Arr 4096 16) (hA : AllReal A) (hB : AllReal B) : AllReal (delta A B) := by
  intro i
  obtain ⟨s, hs⟩ := sum_mul_real Finset.univ (fun r : Fin 16 => B (ix2 (row i) r)) (fun r : Fin 16 => A (ix2 r (col i)))
    (fun r => hB _) (fun r => hA _)
  refine ⟨2 * s, ?_⟩
  show two * ∑ r : Fin 16, B (ix2 (row i) r) * A (ix2 r (col i)) = _
  rw [hs, two_eq, EReal.coe_mul]

/-- THE LAW: on real entries the folded form is the split form, entry by entry — the distributive law under the sum over k. -/
theorem folded_eq_split (W : Arr 4096 4096) (A : Arr 16 4096) (B : Arr 4096 16) (X : Arr 4096 8192)
    (hW : AllReal W) (hA : AllReal A) (hB : AllReal B) (hX : AllReal X) :
    folded W A B X = split W A B X := by
  funext i
  show ∑ k : Fin 4096, (W (ix2 (row i) k) + delta A B (ix2 (row i) k)) * X (ix2 k (col i))
      = ∑ k : Fin 4096, W (ix2 (row i) k) * X (ix2 k (col i)) + ∑ k : Fin 4096, delta A B (ix2 (row i) k) * X (ix2 k (col i))
  rw [← Finset.sum_add_distrib]
  exact Finset.sum_congr rfl fun k _ => add_mul_real (hW _) (delta_real A B hA hB _) (hX _)

end Cert.Lora

end
-- ==== Proof.FiniteInputs.lean ====
/-
  The precondition "every float input is finite", read back at the ideal instance.

  The printed predicate takes, for each of the four input arrays, the absolute value of every entry,
  compares it (strictly less) with the pattern of +infinity, and folds all the answers with "and";
  the four folds are and-ed together. If the result is 1 then every fold is 1, so every comparison is 1,
  so |v i| < ⊤ in the extended reals. An extended real whose absolute value max v (-v) is below ⊤ is neither
  ⊤ nor ⊥ (both have absolute value ⊤), hence is a real number.
-/
import proofs.«174944_j89326729822539_2_alg».proof.Pre_finite_inputs
import Idealize.ShloMosaic.PureOps.Ideal
import Idealize.ShloMosaic.PureOps.Ideal.Laws
import Idealize.ShloMosaic.Lib.ValueIdx
import Idealize.ShloMosaic.Lib.ReduceAll
import proofs.«174944_j89326729822539_2_alg».proof.Proof.LibRealEntries

noncomputable section

namespace Cert.Lora

open Idealize.ShloMosaic Cert.RealEntries

/-- The four arrays' parts of the predicate, and-ed together: each is the general fact about one array. -/
theorem allReal_of_finite_inputs [Cert.Pre_finite_inputs.Facts]
    (x : FVec Ideal Cert.Pre_finite_inputs.S4096x8192 .f32) (w : FVec Ideal Cert.Pre_finite_inputs.S4096x4096 .f32)
    (a : FVec Ideal Cert.Pre_finite_inputs.S16x4096 .f32) (b : FVec Ideal Cert.Pre_finite_inputs.S4096x16 .f32)
    (h : Cert.Pre_finite_inputs.fn (F := Ideal) x w a b = (fun _ => 1#1)) :
    (∀ i, ∃ r : ℝ, x i = (r : EReal)) ∧ (∀ i, ∃ r : ℝ, w i = (r : EReal)) ∧ (∀ i, ∃ r : ℝ, a i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h13, hb⟩ := IntOp.andi_eq_one.1 h0
  obtain ⟨h8, ha⟩ := IntOp.andi_eq_one.1 h13
  obtain ⟨hx, hw⟩ := IntOp.andi_eq_one.1 h8
  exact ⟨allReal_of_reduce _ _ _ _ x _ _ hx, allReal_of_reduce _ _ _ _ w _ _ hw,
    allReal_of_reduce _ _ _ _ a _ _ ha, allReal_of_reduce _ _ _ _ b _ _ hb⟩

end Cert.Lora

end
-- ==== Proof.WeffValue.lean ====
/-
  REGION 0: the adapted weight, as the array it leaves.

  The first kernel walks the 4096 rows of the weight in 8 blocks of 512 rows. At block t it loads rows
  512 t .. 512 t + 511 of W (all 4096 columns) and of B (all 16 columns), and the whole of A, and stores
  W_blk + 2 * (B_blk A) — a 512 x 16 by 16 x 4096 product into a zero accumulator, scaled by 2 and added to the block of W.
  At the ideal instance a change of float format is the identity, so entry (p, q) of the stored block is
  W_blk[p, q] + 2 * (sum over r of B_blk[p, r] * A[r, q]). Row p of block t is row 512 t + p of the arrays and the
  columns are untouched, so the stored block is block t of ONE whole-array function, the adapted weight
  Weff[p, q] = W[p, q] + 2 * (sum over r of B[p, r] * A[r, q]); the 8 blocks tile the 4096 rows, so the array ends holding Weff.
-/
import proofs.«174944_j89326729822539_2_alg».proof.Proof.Gen.KernelIdeal.Frame
import proofs.«174944_j89326729822539_2_alg».proof.Proof.LoraLaw
import Idealize.ShloMosaic.Lib.Pipeline.Value
import Idealize.ShloMosaic.Lib.ValueIdx
import Idealize.ShloMosaic.PureOps.Ideal.Laws

noncomputable section

namespace Cert.KernelIdeal.WeffValue

open Cert.KernelIdeal Cert.KernelIdeal.Gen Idealize.ShloMosaic Idealize.ShloMosaic.TcCoe Idealize.SL.Sem
open Idealize.ShloMosaic.ValueIdx Cert.Lora
open Idealize.ShloMosaic.Pipeline (Dat)

/-! ## The body's matrix product at an entry -/

/-- The product's dimensions: 512 x 16 by 16 x 4096, contracting the 16. -/
abbrev D0 : DotDims S512x16 S16x4096 S512x4096 := dot_S512x16_S16x4096_S512x4096_1_0_0_1_n_n

theorem lhs0_row (i : S512x4096.Idx) (k : D0.contr.Idx) : (D0.lhsIdx i k 0).val = (i 0).val := by
  unfold DotDims.lhsIdx
  rw [dif_neg (show ¬(0 : Fin S512x16.rank) ∈ D0.lhsBatch by decide), dif_pos (show (0 : Fin S512x16.rank) ∈ D0.lhsNonContracting by decide)]
  rfl
theorem lhs0_col (i : S512x4096.Idx) (k : D0.contr.Idx) : (D0.lhsIdx i k 1).val = (k ⟨0, by decide⟩).val :=
  D0.lhsIdx_val_of_single rfl i k
theorem rhs0_row (i : S512x4096.Idx) (k : D0.contr.Idx) : (D0.rhsIdx i k 0).val = (k ⟨0, by decide⟩).val :=
  D0.rhsIdx_val_of_single rfl i k
theorem rhs0_col (i : S512x4096.Idx) (k : D0.contr.Idx) : (D0.rhsIdx i k 1).val = (i 1).val := by
  unfold DotDims.rhsIdx
  rw [dif_neg (show ¬(1 : Fin S16x4096.rank) ∈ D0.rhsBatch by decide), dif_pos (show (1 : Fin S16x4096.rank) ∈ D0.rhsNonContracting by decide)]
  rfl

/-- Into a zero accumulator the product's entry (p, q) is the sum over the 16 contracted positions. -/
theorem dot0_apply (l : FVec Ideal S512x16 .bf16) (r : FVec Ideal S16x4096 .bf16) (p : Fin 512) (q : Fin 4096) :
    matmul D0 none l r (constant S512x4096 .f32 0x00000000#32) (ix2 p q) = ∑ k : Fin 16, l (ix2 p k) * r (ix2 k q) := by
  refine (Ideal.matmul_constant_zero_apply D0 none l r (ix2 p q)).trans ?_
  rw [← Equiv.sum_comp (ValueIdx.contrEquiv1 D0 16 rfl rfl).symm]
  refine Finset.sum_congr rfl fun k _ => ?_
  have hk := ValueIdx.contrEquiv1_symm_val D0 16 rfl rfl k
  have el : D0.lhsIdx (ix2 p q) ((ValueIdx.contrEquiv1 D0 16 rfl rfl).symm k) = ix2 p k := funext fun a => Fin.ext (by
    match a with
    | ⟨0, _⟩ => exact lhs0_row _ _
    | ⟨1, _⟩ => exact (lhs0_col _ _).trans hk)
  have er : D0.rhsIdx (ix2 p q) ((ValueIdx.contrEquiv1 D0 16 rfl rfl).symm k) = ix2 k q := funext fun a => Fin.ext (by
    match a with
    | ⟨0, _⟩ => exact (rhs0_row _ _).trans hk
    | ⟨1, _⟩ => exact rhs0_col _ _)
  rw [el, er]

/-! ## The body's stored value at an entry -/

/-- Entry (p, q) of what the body stores, from its three loaded blocks: the block of W plus twice the product's entry. -/
theorem payload_apply (b : Vec Ideal S512x16 .f32) (a : Vec Ideal S16x4096 .f32) (w : Vec Ideal S512x4096 .f32)
    (p : Fin 512) (q : Fin 4096) :
    k0_pay1 (F := Ideal) b a w (ix2 p q) = w (ix2 p q) + two * ∑ k : Fin 16, b (ix2 p k) * a (ix2 k q) := by
  unfold k0_pay1
  show w (ix2 p q) + two * matmul (F := Ideal) D0 none (truncf (F := Ideal) .bf16 b bitsLt_bf16_f32)
      (truncf (F := Ideal) .bf16 a bitsLt_bf16_f32) (constant (F := Ideal) S512x4096 .f32 0x00000000#32) (ix2 p q) = _
  rw [dot0_apply]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit, decided over the 8 points: the blocks of W, of B and of the result are block row t; every block
    starts at column 0; the block of A is the whole of A. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, q) of what the body stores at point t is the adapted weight at the entry's place in the array:
    row 512 t + p, column q. -/
theorem block_entry (c : Dev nD) (t : Fin cfg0.N) (j : S512x4096.Idx) :
    k0_pay1 (F := Ideal) (iblk0 V c 2 t) (iblk0 V c 1 t) (iblk0 V c 0 t) j
      = weff (V c main_arg1) (V c main_arg2) (V c main_arg3) (((cfg0.win 3).blk t).view.emb j) := by
  obtain ⟨p, q, rfl⟩ : ∃ (p : Fin 512) (q : Fin 4096), j = ix2 p q := ⟨j 0, j 1, eq_ix2 j⟩
  refine (payload_apply _ _ _ p q).trans ?_
  obtain ⟨e00, e01, e10, e11, e20, e21, e30, e31⟩ := block_positions t
  -- the block of W is read where the result's block is written
  have rW : iblk0 V c 0 t (ix2 p q) = V c main_arg1 (((cfg0.win 3).blk t).view.emb (ix2 p q)) := by
    show V c main_arg1 (((cfg0.win 0).blk t).view.emb (ix2 p q)) = V c main_arg1 (((cfg0.win 3).blk t).view.emb (ix2 p q))
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * q.val = win0_3.index t (1 : Fin 2) * 4096 + 1 * q.val; omega
  -- the block of B: the same rows, its own 16 columns
  have rB : ∀ k : Fin 16, iblk0 V c 2 t (ix2 p k)
      = V c main_arg3 (ix2 (row (((cfg0.win 3).blk t).view.emb (ix2 p q))) k) := fun k => by
    show V c main_arg3 (((cfg0.win 2).blk t).view.emb (ix2 p k)) = _
    refine congrArg _ (funext fun a => Fin.ext ?_)
    match a with
    | ⟨0, _⟩ => show win0_2.index t (0 : Fin 2) * 512 + 1 * p.val = win0_3.index t (0 : Fin 2) * 512 + 1 * p.val; omega
    | ⟨1, _⟩ => show win0_2.index t (1 : Fin 2) * 16 + 1 * k.val = k.val; omega
  -- the block of A: all of A, read at the result's column
  have rA : ∀ k : Fin 16, iblk0 V c 1 t (ix2 k q)
      = V c main_arg2 (ix2 k (col (((cfg0.win 3).blk t).view.emb (ix2 p q)))) := fun k => by
    show V c main_arg2 (((cfg0.win 1).blk t).view.emb (ix2 k q)) = _
    refine congrArg _ (funext fun a => Fin.ext ?_)
    match a with
    | ⟨0, _⟩ => show win0_1.index t (0 : Fin 2) * 16 + 1 * k.val = k.val; omega
    | ⟨1, _⟩ => show win0_1.index t (1 : Fin 2) * 4096 + 1 * q.val = win0_3.index t (1 : Fin 2) * 4096 + 1 * q.val; omega
  rw [rW]
  refine congrArg (fun s => _ + two * s) (Finset.sum_congr rfl fun k _ => ?_)
  rw [rB k, rA k]

/-- WHAT POINT t WRITES BACK is block t of the adapted weight of the arrays as the region finds them. -/
theorem flushed_eq (c : Dev nD) (t : Fin cfg0.N) :
    (dat0 V c).flushed 3 t
      = ((cfg0.win 3).blk t).view.read (Elt Ideal) (weff (V c main_arg1) (V c main_arg2) (V c main_arg3)) := by
  show (cfg0.win 3).cut (grid0.coords t) ((dat0 V c).after 3 t) = _
  rw [after0_3]
  unfold out0_3
  rw [View.canon_unit_zero zero_offsets]
  simp only [View.ld_unit_zero (S := S512x16) zero_offsets, View.ld_unit_zero (S := S16x4096) zero_offsets,
    View.ld_unit_zero (S := S512x4096) zero_offsets]
  funext j
  exact block_entry V c t j

/-- An index of the array is in point t's block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v0).slice (win0_3.rect t)).set ↔ _
  rw [View.set_slice_whole, Rect.mem_set_unit]
  exact Iff.rfl

/-- The 8 blocks of 512 rows tile the 4096 rows: row r is in block r / 512. -/
theorem cover (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  have ht : (i 0).val / 512 < 8 := by omega
  refine ⟨⟨(i 0).val / 512, ht⟩, flush0_3 _, ?_⟩
  rw [mem_blk]
  obtain ⟨-, -, -, -, -, -, e30, e31⟩ := block_positions ⟨(i 0).val / 512, ht⟩
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, ht⟩ (1 : Fin 2) * 4096 ≤ (i 1).val
      ∧ (i 1).val < win0_3.index ⟨(i 0).val / 512, ht⟩ (1 : Fin 2) * 4096 + 4096
    rw [e31]; omega

/-- THE ARRAY after the region: the adapted weight of the arrays as the region finds them. -/
theorem final (c : Dev nD) :
    (dat0 V c).arrAt 3 cfg0.N = weff (V c main_arg1) (V c main_arg2) (V c main_arg3) :=
  (dat0 V c).arrAt_eq_of_cover 3 _ (fun t _ => flushed_eq V c t) cover

end Cert.KernelIdeal.WeffValue

end
-- ==== Proof.MatmulValue.lean ====
/-
  REGION 1: the product with the adapted weight, as the array it leaves.

  The second kernel walks a 2 x 32 grid. At point (u, v) it loads rows 2048 u .. 2048 u + 2047 of the adapted weight (all
  4096 columns) and columns 256 v .. 256 v + 255 of X (all 4096 rows), and stores their product — 2048 x 4096 by 4096 x 256
  into a zero accumulator — as block (u, v) of the result. At the ideal instance a change of float format is the identity, so
  entry (p, q) of the stored block is the sum over k of L_blk[p, k] * X_blk[k, q]. Row p of the block is row 2048 u + p of the
  weight and of the result, column q is column 256 v + q of X and of the result, and the contracted position k is untouched;
  so the stored block is block (u, v) of ONE whole-array function, the matrix product (L X)[p, q] = sum over k of
  L[p, k] * X[k, q] of the arrays as the region finds them. The 2 x 32 blocks tile the 4096 x 8192 result.
-/
import proofs.«174944_j89326729822539_2_alg».proof.Proof.Gen.KernelIdeal.Frame
import proofs.«174944_j89326729822539_2_alg».proof.Proof.LoraLaw
import Idealize.ShloMosaic.Lib.Pipeline.Value
import Idealize.ShloMosaic.Lib.ValueIdx
import Idealize.ShloMosaic.PureOps.Ideal.Laws

noncomputable section

namespace Cert.KernelIdeal.MatmulValue

open Cert.KernelIdeal Cert.KernelIdeal.Gen Idealize.ShloMosaic Idealize.ShloMosaic.TcCoe Idealize.SL.Sem
open Idealize.ShloMosaic.ValueIdx Cert.Lora
open Idealize.ShloMosaic.Pipeline (Dat)

/-! ## The body's matrix product at an entry -/

/-- The product's dimensions: 2048 x 4096 by 4096 x 256, contracting the 4096. -/
abbrev D1 : DotDims S2048x4096 S4096x256 S2048x256 := dot_S2048x4096_S4096x256_S2048x256_1_0_0_1_n_n

theorem lhs1_row (i : S2048x256.Idx) (k : D1.contr.Idx) : (D1.lhsIdx i k 0).val = (i 0).val := by
  unfold DotDims.lhsIdx
  rw [dif_neg (show ¬(0 : Fin S2048x4096.rank) ∈ D1.lhsBatch by decide), dif_pos (show (0 : Fin S2048x4096.rank) ∈ D1.lhsNonContracting by decide)]
  rfl
theorem lhs1_col (i : S2048x256.Idx) (k : D1.contr.Idx) : (D1.lhsIdx i k 1).val = (k ⟨0, by decide⟩).val :=
  D1.lhsIdx_val_of_single rfl i k
theorem rhs1_row (i : S2048x256.Idx) (k : D1.contr.Idx) : (D1.rhsIdx i k 0).val = (k ⟨0, by decide⟩).val :=
  D1.rhsIdx_val_of_single rfl i k
theorem rhs1_col (i : S2048x256.Idx) (k : D1.contr.Idx) : (D1.rhsIdx i k 1).val = (i 1).val := by
  unfold DotDims.rhsIdx
  rw [dif_neg (show ¬(1 : Fin S4096x256.rank) ∈ D1.rhsBatch by decide), dif_pos (show (1 : Fin S4096x256.rank) ∈ D1.rhsNonContracting by decide)]
  rfl

/-- Into a zero accumulator the product's entry (p, q) is the sum over the 4096 contracted positions. -/
theorem dot1_apply (l : FVec Ideal S2048x4096 .bf16) (r : FVec Ideal S4096x256 .bf16) (p : Fin 2048) (q : Fin 256) :
    matmul D1 none l r (constant S2048x256 .f32 0x00000000#32) (ix2 p q) = ∑ k : Fin 4096, l (ix2 p k) * r (ix2 k q) := by
  refine (Ideal.matmul_constant_zero_apply D1 none l r (ix2 p q)).trans ?_
  rw [← Equiv.sum_comp (ValueIdx.contrEquiv1 D1 4096 rfl rfl).symm]
  refine Finset.sum_congr rfl fun k _ => ?_
  have hk := ValueIdx.contrEquiv1_symm_val D1 4096 rfl rfl k
  have el : D1.lhsIdx (ix2 p q) ((ValueIdx.contrEquiv1 D1 4096 rfl rfl).symm k) = ix2 p k := funext fun a => Fin.ext (by
    match a with
    | ⟨0, _⟩ => exact lhs1_row _ _
    | ⟨1, _⟩ => exact (lhs1_col _ _).trans hk)
  have er : D1.rhsIdx (ix2 p q) ((ValueIdx.contrEquiv1 D1 4096 rfl rfl).symm k) = ix2 k q := funext fun a => Fin.ext (by
    match a with
    | ⟨0, _⟩ => exact (rhs1_row _ _).trans hk
    | ⟨1, _⟩ => exact rhs1_col _ _)
  rw [el, er]

/-! ## The body's stored value at an entry -/

/-- Entry (p, q) of what the body stores, from its two loaded blocks (the block of X first, as the body loads them). -/
theorem payload_apply (x : Vec Ideal S4096x256 .f32) (l : Vec Ideal S2048x4096 .bf16) (p : Fin 2048) (q : Fin 256) :
    k1_pay1 (F := Ideal) x l (ix2 p q) = ∑ k : Fin 4096, l (ix2 p k) * x (ix2 k q) := by
  unfold k1_pay1
  show matmul (F := Ideal) D1 none (shapeCast S2048x4096 l shapeCasts_S2048x4096_S2048x4096)
      (truncf (F := Ideal) .bf16 x bitsLt_bf16_f32) (constant (F := Ideal) S2048x256 .f32 0x00000000#32) (ix2 p q) = _
  rw [shapeCast_self, dot1_apply]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit, decided over the 64 points: the weight's block is in the result's block row and starts at column 0;
    X's block is in the result's block column and starts at row 0; the result's block row is below 2 and its block column below 32. -/
theorem block_positions : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) < 2 ∧ win1_2.index t (1 : Fin 2) < 32 :=
  (by decide +kernel : ∀ t : Fin grid1.N, _)

/-- Every block of the result is SOME point's. -/
theorem block_onto : ∀ (u : Fin 2) (v : Fin 32), ∃ t : Fin cfg1.N, win1_2.index t = ![u.val, v.val] :=
  (by decide +kernel : ∀ (u : Fin 2) (v : Fin 32), ∃ t : Fin grid1.N, win1_2.index t = ![u.val, v.val])

/-- Entry (p, q) of what the body stores at point t is the matrix product at the entry's place in the array. -/
theorem block_entry (c : Dev nD) (t : Fin cfg1.N) (j : S2048x256.Idx) :
    k1_pay1 (F := Ideal) (iblk1 V c 1 t) (iblk1 V c 0 t) j
      = mm (V c main_v0) (V c main_arg0) (((cfg1.win 2).blk t).view.emb j) := by
  obtain ⟨p, q, rfl⟩ : ∃ (p : Fin 2048) (q : Fin 256), j = ix2 p q := ⟨j 0, j 1, eq_ix2 j⟩
  refine (payload_apply _ _ p q).trans ?_
  obtain ⟨e00, e01, e10, e11, -, -⟩ := block_positions t
  -- the weight's block: the result's rows, every contracted position
  have rL : ∀ k : Fin 4096, iblk1 V c 0 t (ix2 p k)
      = V c main_v0 (ix2 (row (((cfg1.win 2).blk t).view.emb (ix2 p q))) k) := fun k => by
    show V c main_v0 (((cfg1.win 0).blk t).view.emb (ix2 p k)) = _
    refine congrArg _ (funext fun a => Fin.ext ?_)
    match a with
    | ⟨0, _⟩ => show win1_0.index t (0 : Fin 2) * 2048 + 1 * p.val = win1_2.index t (0 : Fin 2) * 2048 + 1 * p.val; omega
    | ⟨1, _⟩ => show win1_0.index t (1 : Fin 2) * 4096 + 1 * k.val = k.val; omega
  -- X's block: every contracted position, the result's columns
  have rX : ∀ k : Fin 4096, iblk1 V c 1 t (ix2 k q)
      = V c main_arg0 (ix2 k (col (((cfg1.win 2).blk t).view.emb (ix2 p q)))) := fun k => by
    show V c main_arg0 (((cfg1.win 1).blk t).view.emb (ix2 k q)) = _
    refine congrArg _ (funext fun a => Fin.ext ?_)
    match a with
    | ⟨0, _⟩ => show win1_1.index t (0 : Fin 2) * 4096 + 1 * k.val = k.val; omega
    | ⟨1, _⟩ => show win1_1.index t (1 : Fin 2) * 256 + 1 * q.val = win1_2.index t (1 : Fin 2) * 256 + 1 * q.val; omega
  refine Finset.sum_congr rfl fun k _ => ?_
  rw [rL k, rX k]

/-- WHAT POINT t WRITES BACK is block t of the matrix product of the arrays as the region finds them. -/
theorem flushed_eq (c : Dev nD) (t : Fin cfg1.N) :
    (dat1 V c).flushed 2 t = ((cfg1.win 2).blk t).view.read (Elt Ideal) (mm (V c main_v0) (V c main_arg0)) := by
  show (cfg1.win 2).cut (grid1.coords t) ((dat1 V c).after 2 t) = _
  rw [after1_2]
  unfold out1_2
  rw [View.canon_unit_zero zero_offsets]
  simp only [View.ld_unit_zero (S := S4096x256) zero_offsets, View.ld_unit_zero (S := S2048x4096) zero_offsets]
  funext j
  exact block_entry V c t j

/-- An index of the array is in point t's block iff each coordinate is in the block's range on its axis. -/
theorem mem_blk (t : Fin cfg1.N) (i : S4096x8192.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v1).slice (win1_2.rect t)).set ↔ _
  rw [View.set_slice_whole, Rect.mem_set_unit]
  exact Iff.rfl

/-- The 2 x 32 blocks of 2048 x 256 tile the 4096 x 8192 result: entry (r, s) is in block (r / 2048, s / 256). -/
theorem cover (i : S4096x8192.Idx) :
    ∃ t : Fin cfg1.N, (cfg1.win 2).flush t = true ∧ i ∈ ((cfg1.win 2).blk t).view.set := by
  have hi0 : (i 0).val < 4096 := idx2_lt0 i
  have hi1 : (i 1).val < 8192 := idx2_lt1 i
  obtain ⟨t, ht⟩ := block_onto ⟨(i 0).val / 2048, by omega⟩ ⟨(i 1).val / 256, by omega⟩
  have q0 : win1_2.index t (0 : Fin 2) = (i 0).val / 2048 := congrFun ht 0
  have q1 : win1_2.index t (1 : Fin 2) = (i 1).val / 256 := congrFun ht 1
  refine ⟨t, flush1_2 t, ?_⟩
  rw [mem_blk]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 256 ≤ (i 1).val ∧ (i 1).val < win1_2.index t (1 : Fin 2) * 256 + 256
    omega

/-- THE ARRAY after the region: the matrix product of the arrays as the region finds them. -/
theorem final (c : Dev nD) :
    (dat1 V c).arrAt 2 cfg1.N = mm (V c main_v0) (V c main_arg0) :=
  (dat1 V c).arrAt_eq_of_cover 2 _ (fun t _ => flushed_eq V c t) cover

end Cert.KernelIdeal.MatmulValue

end
-- ==== Proof.ReferenceSplit.lean ====
/-
  THE REFERENCE computes the split form.

  Its seven host operations are: the 4096 x 16 by 16 x 4096 product B A; the constant 2 broadcast over 4096 x 4096; their
  entrywise product, the scaled update D = 2 * (B A); the two 4096 x 4096 by 4096 x 8192 products W X and D X; and their
  entrywise sum. At the ideal instance each product's entry is the plain sum over the contracted position, so entry (p, q)
  of the result is (sum over k of W[p, k] * X[k, q]) + (sum over k of D[p, k] * X[k, q]): the split form of the law.
-/
import proofs.«174944_j89326729822539_2_alg».proof.Proof.Gen.ReferenceIdeal.Read
import proofs.«174944_j89326729822539_2_alg».proof.Proof.LoraLaw

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx Cert.Lora

/-! ## The products' operand positions, by coordinates -/

theorem lidx0 (i : S4096x4096.Idx) (k : Fin 16) : lidx_main_v0 i k = ix2 (row i) k :=
  funext fun a => Fin.ext (by match a with | ⟨0, _⟩ => rfl | ⟨1, _⟩ => rfl)
theorem ridx0 (i : S4096x4096.Idx) (k : Fin 16) : ridx_main_v0 i k = ix2 k (col i) :=
  funext fun a => Fin.ext (by match a with | ⟨0, _⟩ => rfl | ⟨1, _⟩ => rfl)
theorem lidx3 (i : S4096x8192.Idx) (k : Fin 4096) : lidx_main_v3 i k = ix2 (row i) k :=
  funext fun a => Fin.ext (by match a with | ⟨0, _⟩ => rfl | ⟨1, _⟩ => rfl)
theorem ridx3 (i : S4096x8192.Idx) (k : Fin 4096) : ridx_main_v3 i k = ix2 k (col i) :=
  funext fun a => Fin.ext (by match a with | ⟨0, _⟩ => rfl | ⟨1, _⟩ => rfl)
theorem lidx4 (i : S4096x8192.Idx) (k : Fin 4096) : lidx_main_v4 i k = ix2 (row i) k :=
  funext fun a => Fin.ext (by match a with | ⟨0, _⟩ => rfl | ⟨1, _⟩ => rfl)
theorem ridx4 (i : S4096x8192.Idx) (k : Fin 4096) : ridx_main_v4 i k = ix2 k (col i) :=
  funext fun a => Fin.ext (by match a with | ⟨0, _⟩ => rfl | ⟨1, _⟩ => rfl)

/-! ## The stages -/

/-- The third stage is the scaled update: D[p, q] = 2 * (sum over r of B[p, r] * A[r, q]). -/
theorem update_eq (A : (⟨S16x4096, .f32⟩ : BufTy).Contents (Elt Ideal)) (B : (⟨S4096x16, .f32⟩ : BufTy).Contents (Elt Ideal)) :
    val_main_v2 (F := Ideal) A B = delta A B := by
  funext i
  rw [val_main_v2_apply, val_main_v1_apply, val_main_cst_apply, val_main_v0_apply]
  simp only [lidx0, ridx0]
  rfl

/-- The result is the split form: the base product plus the update's product, entry by entry. -/
theorem result_eq (X : (⟨S4096x8192, .f32⟩ : BufTy).Contents (Elt Ideal)) (W : (⟨S4096x4096, .f32⟩ : BufTy).Contents (Elt Ideal))
    (A : (⟨S16x4096, .f32⟩ : BufTy).Contents (Elt Ideal)) (B : (⟨S4096x16, .f32⟩ : BufTy).Contents (Elt Ideal)) :
    val_main_v5 (F := Ideal) X W A B = split W A B X := by
  funext i
  rw [val_main_v5_apply, val_main_v3_apply, val_main_v4_apply, update_eq]
  simp only [lidx3, ridx3, lidx4, ridx4]
  rfl

end Cert.ReferenceIdeal.RefValue

end
-- ==== Proof.lean ====
/-
  A low-rank-adapted linear map, folded against split.

  With W : 4096 x 4096, A : 16 x 4096, B : 4096 x 16, X : 4096 x 8192 and the scale 2 = alpha / r = 32 / 16, the kernel first
  builds the adapted weight Weff = W + 2 * (B A) (its first region, 8 blocks of 512 rows) and then takes the ONE product
  Weff X (its second region, a 2 x 32 grid of 2048 x 256 blocks); the reference takes the TWO products W X and (2 * (B A)) X
  and adds them. At the ideal instance every change of float format is the identity and every product into a zero accumulator
  is the plain sum over the contracted position, so the kernel's result is the folded form and the reference's the split form
  of Proof/LoraLaw.lean, and the two agree by the distributive law (w + d) * x = w * x + d * x under the sum over k. That law
  fails at the infinities of the extended reals, so the precondition is USED: every entry of the four inputs is finite, hence
  a real number (Proof/FiniteInputs.lean), hence so is every entry of the update, and the law is the reals' own.

  The pieces: Proof/WeffValue.lean (the first region leaves Weff of the arrays it finds), Proof/MatmulValue.lean (the second
  leaves the product of the arrays it finds), Proof/KernelIdealRun.lean (the run, with the result array named),
  Proof/ReferenceSplit.lean (the reference's seven operations are the split form). The idealization rewrote no operation, so
  there is nothing to preserve beyond the program's own text.
-/
import proofs.«174944_j89326729822539_2_alg».proof.Defs
import proofs.«174944_j89326729822539_2_alg».proof.Proof.Gen.Kernel
import proofs.«174944_j89326729822539_2_alg».proof.Proof.Gen.Kernel.Skeleton
import proofs.«174944_j89326729822539_2_alg».proof.Proof.Gen.Kernel.Launch
import proofs.«174944_j89326729822539_2_alg».proof.Proof.Gen.Kernel.Points
import proofs.«174944_j89326729822539_2_alg».proof.Proof.Gen.Kernel.Frame
import proofs.«174944_j89326729822539_2_alg».proof.Proof.Gen.KernelIdeal
import proofs.«174944_j89326729822539_2_alg».proof.Proof.Gen.KernelIdeal.Skeleton
import proofs.«174944_j89326729822539_2_alg».proof.Proof.Gen.KernelIdeal.Launch
import proofs.«174944_j89326729822539_2_alg».proof.Proof.Gen.KernelIdeal.Points
import proofs.«174944_j89326729822539_2_alg».proof.Proof.Gen.KernelIdeal.Frame
import proofs.«174944_j89326729822539_2_alg».proof.Proof.Gen.ReferenceIdeal
import proofs.«174944_j89326729822539_2_alg».proof.Proof.Gen.ReferenceIdeal.Run
import proofs.«174944_j89326729822539_2_alg».proof.Proof.Gen.ReferenceIdeal.Read
import proofs.«174944_j89326729822539_2_alg».proof.Proof.Gen.Pre_finite_inputs
import proofs.«174944_j89326729822539_2_alg».proof.Proof.LoraLaw
import proofs.«174944_j89326729822539_2_alg».proof.Proof.FiniteInputs
import proofs.«174944_j89326729822539_2_alg».proof.Proof.KernelIdealRun
import proofs.«174944_j89326729822539_2_alg».proof.Proof.WeffValue
import proofs.«174944_j89326729822539_2_alg».proof.Proof.MatmulValue
import proofs.«174944_j89326729822539_2_alg».proof.Proof.ReferenceSplit
import Idealize.ShloMosaic.Adequacy
import Idealize.ShloMosaic.Init

noncomputable section

/-! ## The kernel's result array after its run -/

namespace Cert.KernelIdeal.Result

open Cert.KernelIdeal Cert.KernelIdeal.Gen Idealize.ShloMosaic Idealize.ShloMosaic.TcCoe Idealize.SL.Sem Cert.Lora

variable (m : (ℓ : Loc nD τ sig) → Buf (Elt Ideal) ℓ) (ρ : Dev nD → PrngReg)

/-- The second region finds the adapted weight of the launch arrays in the first region's result array, -/
theorem entry_weight (c : Dev nD) :
    V1 m ρ c main_v0 = weff (m ((c : Thread nD τ).loc main_arg1)) (m ((c : Thread nD τ).loc main_arg2)) (m ((c : Thread nD τ).loc main_arg3)) :=
  (W1_arr m ρ c 3).trans (WeffValue.final (V0 m ρ) c)

/-- and X as launched: the first region does not touch it. -/
theorem entry_x (c : Dev nD) : V1 m ρ c main_arg0 = m ((c : Thread nD τ).loc main_arg0) :=
  W1_of_ne m ρ c main_arg0 (by decide)

/-- So the result array ends holding the folded form of the launch arrays. -/
theorem result_eq (c : Dev nD) :
    W2 m ρ c (Proc.devRef .tc main_v1)
      = folded (m ((c : Thread nD τ).loc main_arg1)) (m ((c : Thread nD τ).loc main_arg2)) (m ((c : Thread nD τ).loc main_arg3))
          (m ((c : Thread nD τ).loc main_arg0)) := by
  refine (W2_arr m ρ c 2).trans ((MatmulValue.final (V1 m ρ) c).trans ?_)
  rw [entry_weight, entry_x]
  rfl

end Cert.KernelIdeal.Result

/-! ## The claims -/

namespace Cert.Proof

open Idealize.ShloMosaic Idealize.SL.Sem Cert.Lora

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel ends at the folded form of its inputs and the reference at the split form of the same inputs; the inputs are
    finite, so every entry is a real and the two forms agree. -/
theorem algebraic : Cert.algebraic_KernelIdeal_ReferenceIdeal := by
  intro m ρ m' ρ' hpre hagree
  refine ⟨fun c => folded (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Result.result_eq m ρ c), (h c).2⟩)
      (Cert.KernelIdeal.GenP.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.result_eq,
      (hagree c).1, (hagree c).2.1, (hagree c).2.2.1, (hagree c).2.2.2]
    obtain ⟨hx, hw, ha, hb⟩ := allReal_of_finite_inputs _ _ _ _ (hpre c)
    exact (folded_eq_split _ _ _ _ hw ha hb hx).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
